-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S8x8192x2048 : Shape := ⟨3, ![8, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn {F : FTy → Type} [FloatOps F] (main_arg0 : FVec F S8192x2048 .f32) (main_arg1 : IVec S8192 32) (main_arg2 : FVec F S8x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x8192x2048 .f32 := Host.absf main_arg2
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  main_v8
-- ==== Kernel.lean ====
abbrev S8192x2048 : Shape := ⟨2, ![8192, 2048]⟩
abbrev S8192 : Shape := ⟨1, ![8192]⟩
abbrev S8x8192x2048 : Shape := ⟨3, ![8, 8192, 2048]⟩
abbrev S8192x8192 : Shape := ⟨2, ![8192, 8192]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8x8192x2048, .f32⟩
  | .hbm, ⟨3, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024, .i32⟩
  | .local _ .vmem, ⟨5, _⟩ => ⟨S1024, .i32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 8, 8, 2], ![false, false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let arg3 : BitVec 32 := BitVec.ofNat 32 (i 3).val
  let c1_i32 : BitVec 32 := 1#32
  let v25 : BitVec 1 := Scalar.cmpi .eq arg3 c1_i32
  let v26 : BitVec 1 := Scalar.andi v24 v25
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024_S1024_0 : ∀ a, (![0] : Fin 1 → Nat) a + S1024.size a ≤ S1024.size a
  h_S1024 : 0 < S1024.numel
  natLt_1_32 : 1 < 32
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x8192x2048.size a
  hwx0_1 : ∀ i : grid0.Coords, EltTy.bits .f32 = 32 ∨ (Rect.block (s := S8x8192x2048) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .i32 = 32 ∨ (Rect.block (s := S8192) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192 : Shape := ⟨1, ![8192]⟩
abbrev S8x8192x2048 : Shape := ⟨3, ![8, 8192, 2048]⟩
abbrev S_ : Shape := ⟨0, ![]⟩
abbrev S8192x8192 : Shape := ⟨2, ![8192, 8192]⟩
abbrev S8192x1 : Shape := ⟨2, ![8192, 1]⟩
abbrev S1x8192x2048 : Shape := ⟨3, ![1, 8192, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8x8192x2048, .f32⟩
  | .hbm, ⟨3, _⟩ => ⟨S_, .f32⟩
  | .hbm, ⟨4, _⟩ => ⟨S8192x8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x1, .i1⟩
  | .hbm, ⟨9, _⟩ => ⟨S8192x1, .f32⟩
  | .hbm, ⟨10, _⟩ => ⟨S1x8192x2048, .f32⟩
  | .hbm, ⟨11, _⟩ => ⟨S8192x2048, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192x1, .i1⟩
  | .hbm, ⟨20, _⟩ => ⟨S8192x1, .f32⟩
  | .hbm, ⟨21, _⟩ => ⟨S1x8192x2048, .f32⟩
  | .hbm, ⟨22, _⟩ => ⟨S8192x2048, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192x1, .i1⟩
  | .hbm, ⟨31, _⟩ => ⟨S8192x1, .f32⟩
  | .hbm, ⟨32, _⟩ => ⟨S1x8192x2048, .f32⟩
  | .hbm, ⟨33, _⟩ => ⟨S8192x2048, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192x1, .i1⟩
  | .hbm, ⟨42, _⟩ => ⟨S8192x1, .f32⟩
  | .hbm, ⟨43, _⟩ => ⟨S1x8192x2048, .f32⟩
  | .hbm, ⟨44, _⟩ => ⟨S8192x2048, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S8192x1, .i1⟩
  | .hbm, ⟨53, _⟩ => ⟨S8192x1, .f32⟩
  | .hbm, ⟨54, _⟩ => ⟨S1x8192x2048, .f32⟩
  | .hbm, ⟨55, _⟩ => ⟨S8192x2048, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S8192x1, .i1⟩
  | .hbm, ⟨64, _⟩ => ⟨S8192x1, .f32⟩
  | .hbm, ⟨65, _⟩ => ⟨S1x8192x2048, .f32⟩
  | .hbm, ⟨66, _⟩ => ⟨S8192x2048, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .i32⟩
  | .hbm, ⟨72, _⟩ => ⟨S8192, .i32⟩
  | .hbm, ⟨73, _⟩ => ⟨S8192, .i1⟩
  | .hbm, ⟨74, _⟩ => ⟨S8192x1, .i1⟩
  | .hbm, ⟨75, _⟩ => ⟨S8192x1, .f32⟩
  | .hbm, ⟨76, _⟩ => ⟨S1x8192x2048, .f32⟩
  | .hbm, ⟨77, _⟩ => ⟨S8192x2048, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .i32⟩
  | .hbm, ⟨83, _⟩ => ⟨S8192, .i32⟩
  | .hbm, ⟨84, _⟩ => ⟨S8192, .i1⟩
  | .hbm, ⟨85, _⟩ => ⟨S8192x1, .i1⟩
  | .hbm, ⟨86, _⟩ => ⟨S8192x1, .f32⟩
  | .hbm, ⟨87, _⟩ => ⟨S1x8192x2048, .f32⟩
  | .hbm, ⟨88, _⟩ => ⟨S8192x2048, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_c_6 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  slices_S8x8192x2048_S1x8192x2048_0_0_0 : S8x8192x2048.Slices ![0, 0, 0] S1x8192x2048
  shapeCasts_S1x8192x2048_S8192x2048 : S1x8192x2048.ShapeCasts S8192x2048
  bcast_S8192x1_S8192x8192_0_1 : S8192x1.BroadcastsInDim S8192x8192 (![0, 1] : Fin 2 → Fin S8192x8192.rank)
  slices_S8x8192x2048_S1x8192x2048_1_0_0 : S8x8192x2048.Slices ![1, 0, 0] S1x8192x2048
  slices_S8x8192x2048_S1x8192x2048_2_0_0 : S8x8192x2048.Slices ![2, 0, 0] S1x8192x2048
  slices_S8x8192x2048_S1x8192x2048_3_0_0 : S8x8192x2048.Slices ![3, 0, 0] S1x8192x2048
  slices_S8x8192x2048_S1x8192x2048_4_0_0 : S8x8192x2048.Slices ![4, 0, 0] S1x8192x2048
  slices_S8x8192x2048_S1x8192x2048_5_0_0 : S8x8192x2048.Slices ![5, 0, 0] S1x8192x2048
  slices_S8x8192x2048_S1x8192x2048_6_0_0 : S8x8192x2048.Slices ![6, 0, 0] S1x8192x2048
  slices_S8x8192x2048_S1x8192x2048_7_0_0 : S8x8192x2048.Slices ![7, 0, 0] S1x8192x2048
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.RoutedProduct.lean ====
/-
  The mathematics of the routed (masked) grouped product, stated once over the extended reals.

  A token row t with expert id eid t picks, out of eight weight matrices, the one whose number equals its id:
      out (t, o) = ∑ e : Fin 8, [eid t = e] · ∑ d : Fin 2048, x (t, d) · w (e, o, d),
  where the bracket is the indicator 1 / 0.  One side of the claim adds the eight indicator-weighted products in order;
  the other walks, per [1024, 1024] block (I, J) of the result, the sixteen pairs (e, k) — expert e, half k of the
  contracted axis — in order and adds  [eid = e] · ∑ d' : Fin 1024, x (·, 1024 k + d') · w (e, ·, 1024 k + d')  to an
  accumulator that starts at zero.  The two agree because the indicator is 0 or 1, so it distributes over the sum of the
  two halves (0 · a = 0 and 1 · a = a hold for every extended real, infinite ones included), and because a sum over
  Fin 2048 is the sum of its two halves.  No finiteness of the entries is used.
-/
import Idealize.ShloMosaic.PureOps.Ideal
import Idealize.ShloMosaic.Lib.ValueIdx
import Mathlib.Algebra.BigOperators.Fin
import Mathlib.Data.EReal.Basic
import Mathlib.Tactic

noncomputable section

namespace Cert.RoutedProduct

open Idealize.ShloMosaic Idealize.ShloMosaic.ValueIdx

/-! ## The indicator -/

/-- The indicator of equality of two 32-bit words, as an extended real: 1 or 0. -/
def ind (a b : BitVec 32) : EReal := if a = b then 1 else 0

/-- A 0/1 factor distributes over a sum of extended reals, whatever the summands. -/
theorem ind_mul_add (a b : BitVec 32) (u v : EReal) : ind a b * (u + v) = ind a b * u + ind a b * v := by
  unfold ind
  split
  · simp only [one_mul]
  · simp only [zero_mul, add_zero]

/-- The one-bit comparison, zero-extended to 32 bits and read as a signed integer, is the indicator. -/
theorem signed_of_extended_eq (a b : BitVec 32) :
    (((((IntOp.cmpi .eq a b).setWidth 32).toInt : ℝ)) : EReal) = ind a b := by
  unfold ind IntOp.cmpi
  by_cases h : a = b
  · subst h; simp
  · have hb : (a == b) = false := by simpa using h
    simp [hb, h]

/-- The one-bit comparison read as an unsigned integer is the indicator. -/
theorem unsigned_eq (a b : BitVec 32) :
    ((((IntOp.cmpi .eq a b).toNat : ℝ)) : EReal) = ind a b := by
  unfold ind IntOp.cmpi
  by_cases h : a = b
  · subst h; simp
  · have hb : (a == b) = false := by simpa using h
    simp [hb, h]

/-! ## Indices -/

/-- Row (or column) 1024 · I + p of an axis of extent 8192 (I is read modulo 8). -/
def at8 (I : ℕ) (p : Fin 1024) : Fin 8192 := ⟨(I % 8) * 1024 + p.val, by have := p.isLt; have := Nat.mod_lt I (show 0 < 8 by decide); omega⟩

/-- Position 1024 · K + d of the contracted axis of extent 2048 (K is read modulo 2). -/
def at2 (K : ℕ) (d : Fin 1024) : Fin 2048 := ⟨(K % 2) * 1024 + d.val, by have := d.isLt; have := Nat.mod_lt K (show 0 < 2 by decide); omega⟩

/-- Expert number E modulo 8. -/
def ex (E : ℕ) : Fin 8 := ⟨E % 8, Nat.mod_lt E (by decide)⟩

theorem ex_val (e : Fin 8) : ex e.val = e := Fin.ext (Nat.mod_eq_of_lt e.isLt)

abbrev XIdx := (⟨2, ![8192, 2048]⟩ : Shape).Idx
abbrev EIdx := (⟨1, ![8192]⟩ : Shape).Idx
abbrev WIdx := (⟨3, ![8, 8192, 2048]⟩ : Shape).Idx
abbrev OIdx := (⟨2, ![8192, 8192]⟩ : Shape).Idx

variable (x : XIdx → EReal) (eid : EIdx → BitVec 32) (w : WIdx → EReal)

/-! ## The two descriptions of the result -/

/-- Expert e's product at (t, o): the row of x against row o of the e-th weight matrix. -/
def dot (e : Fin 8) (t o : Fin 8192) : EReal := ∑ d : Fin 2048, x (ix2 t d) * w (ix3 e o d)

/-- THE RESULT, as one function of the three argument arrays. -/
def routed : OIdx → EReal := fun j =>
  ∑ e : Fin 8, ind (eid (ix1 (j 0))) (BitVec.ofNat 32 e.val) * dot x w e (j 0) (j 1)

/-- What one step adds at entry (p, q) of block (I, J): expert E's half-K product, under the indicator. -/
def blockTerm (I J E K : ℕ) (p q : Fin 1024) : EReal :=
  ind (eid (ix1 (at8 I p))) (BitVec.ofNat 32 E)
    * ∑ d : Fin 1024, x (ix2 (at8 I p) (at2 K d)) * w (ix3 (ex E) (at8 J q) (at2 K d))

/-- The accumulator after step n of the walk (n counts all steps of all blocks; sixteen per block): the terms of the
    block's steps so far. -/
def acc (n : ℕ) (p q : Fin 1024) : EReal :=
  ∑ s ∈ Finset.range (n % 16 + 1), blockTerm x eid w (n / 128) (n / 16) (s / 2) (s % 2) p q

/-- At a block's first step the accumulator is that step's term. -/
theorem acc_first (n : ℕ) (h : n % 16 = 0) (p q : Fin 1024) :
    acc x eid w n p q = blockTerm x eid w (n / 128) (n / 16) 0 0 p q := by
  unfold acc
  rw [h, Finset.sum_range_one]

/-- At a later step of a block the accumulator is the previous one plus this step's term. -/
theorem acc_next (n : ℕ) (h : n % 16 ≠ 0) (p q : Fin 1024) :
    acc x eid w n p q
      = acc x eid w (n - 1) p q + blockTerm x eid w (n / 128) (n / 16) (n % 16 / 2) (n % 2) p q := by
  unfold acc
  have h1 : (n - 1) % 16 + 1 = n % 16 := by omega
  have h2 : (n - 1) / 128 = n / 128 := by omega
  have h3 : (n - 1) / 16 = n / 16 := by omega
  have h4 : n % 16 % 2 = n % 2 := by omega
  rw [Finset.sum_range_succ, h1, h2, h3, h4]

/-- Sixteen consecutive terms, paired. -/
theorem sum_range_sixteen (g : ℕ → EReal) :
    ∑ s ∈ Finset.range 16, g s = ∑ e : Fin 8, (g (2 * e.val) + g (2 * e.val + 1)) := by
  simp only [Finset.sum_range_succ, Finset.sum_range_zero, Fin.sum_univ_eight, zero_add]
  simp only [Fin.val_zero, Fin.val_one, Fin.val_two]
  abel

/-- A sum over the contracted axis is the sum of its two halves. -/
theorem sum_halves (f : Fin 2048 → EReal) :
    ∑ d : Fin 1024, f (at2 0 d) + ∑ d : Fin 1024, f (at2 1 d) = ∑ d : Fin 2048, f d := by
  have h : ∑ d : Fin 2048, f d = _ := Fin.sum_univ_add (M := EReal) (a := 1024) (b := 1024) f
  rw [h]
  exact congrArg₂ (· + ·)
    (Finset.sum_congr rfl fun d _ => congrArg f (Fin.ext (by show (0 % 2) * 1024 + d.val = d.val; omega)))
    (Finset.sum_congr rfl fun d _ => congrArg f (Fin.ext (by show (1 % 2) * 1024 + d.val = 1024 + d.val; omega)))

/-- After a block's sixteenth step the accumulator is the result at that entry: pair the steps by expert, pull the
    indicator out of each pair, and join the two halves of the contracted axis. -/
theorem acc_last (n : ℕ) (h : n % 16 = 15) (p q : Fin 1024) :
    acc x eid w n p q = routed x eid w (ix2 (at8 (n / 128) p) (at8 (n / 16) q)) := by
  unfold acc routed
  rw [h, sum_range_sixteen]
  refine Finset.sum_congr rfl fun e _ => ?_
  have e1 : 2 * e.val / 2 = e.val := by omega
  have e2 : 2 * e.val % 2 = 0 := by omega
  have e3 : (2 * e.val + 1) / 2 = e.val := by omega
  have e4 : (2 * e.val + 1) % 2 = 1 := by omega
  rw [e1, e2, e3, e4]
  unfold blockTerm dot
  rw [← ind_mul_add, ex_val]
  congr 1
  exact sum_halves fun d => x (ix2 (at8 (n / 128) p) d) * w (ix3 e (at8 (n / 16) q) d)

end Cert.RoutedProduct

end
-- ==== Proof.ReferenceRouted.lean ====
/-
  The reference, read index by index.

  It starts from the zero array and, for e = 0 … 7 in order, adds the product of two arrays: the indicator [eid t = e]
  (a one-bit comparison converted to a float, placed as a column and spread along the rows) and the e-th weight matrix
  applied to x (slice e of the weights, with its unit axis dropped, contracted with x along the feature axis).  At an
  entry (t, o) each such product is  [eid t = e] · ∑ d, x (t, d) · w (e, o, d), and the eight of them added in order
  to zero are the routed product.
-/
import proofs.«157806_j76647986365154_1_alg».proof.Proof.Gen.ReferenceIdeal.Read
import proofs.«157806_j76647986365154_1_alg».proof.Proof.RoutedProduct

noncomputable section

namespace Cert.RoutedProduct.Reference

open Cert.ReferenceIdeal Cert.ReferenceIdeal.Gen Cert.ReferenceIdeal.Read
open Idealize.ShloMosaic Idealize.ShloMosaic.ValueIdx Cert.RoutedProduct

/-- The indicator column spread along the rows, at entry j: the indicator of row j 0. -/
theorem mask_apply (E : BitVec 32) (x1 : IVec S8192 32) (j : S8192x8192.Idx) :
    (broadcastInDim S8192x8192 ![0, 1] bcast_S8192x1_S8192x8192_0_1
      (uitofp (F := Ideal) .f32 (broadcastInDim S8192x1 ![0] bcast_S8192_S8192x1_0
        (cmpi .eq x1 (broadcastInDim S8192 ![] bcast_S_S8192 (constantI S_ 32 E)))))) j
      = ind (x1 (ix1 (j 0))) E := by
  refine (broadcastInDim_apply _ bcast_S8192x1_S8192x8192_0_1 _ j (ix2 (j 0) (0 : Fin 1)) (fun a => match a with
    | ⟨0, _⟩ => by show (j 0).val = if (8192 : Nat) = 1 then 0 else (j 0).val; rw [if_neg (by decide)]
    | ⟨1, _⟩ => by show 0 = if (1 : Nat) = 1 then 0 else (j 1).val; rw [if_pos rfl])).trans ?_
  show FloatOps.uitofp (F := Ideal) .f32 (broadcastInDim S8192x1 ![0] bcast_S8192_S8192x1_0
    (cmpi .eq x1 (broadcastInDim S8192 ![] bcast_S_S8192 (constantI S_ 32 E))) (ix2 (j 0) (0 : Fin 1))) = _
  rw [broadcastInDim_apply _ bcast_S8192_S8192x1_0 _ (ix2 (j 0) (0 : Fin 1)) (ix1 (j 0)) (fun a => match a with
    | ⟨0, _⟩ => by show (j 0).val = if (8192 : Nat) = 1 then 0 else (j 0).val; rw [if_neg (by decide)])]
  exact unsigned_eq _ _

/-- The host's product contracting the feature axis of both operands, at entry j: row j 0 of the left operand against
    row j 1 of the right. -/
theorem dot_apply (x0 y : FVec Ideal S8192x2048 .f32) (j : S8192x8192.Idx) :
    Host.dotGeneral dot_S8192x2048_S8192x2048_S8192x8192_1_1_0_0_n_n none x0 y j = ∑ k : Fin 2048, x0 (ix2 (j 0) k) * y (ix2 (j 1) k) := by
  simp only [Host.dotGeneral]
  rw [Ideal.dotGeneral_apply, ← Equiv.sum_comp (contrEquiv1 dot_S8192x2048_S8192x2048_S8192x8192_1_1_0_0_n_n 2048 rfl rfl).symm]
  refine Finset.sum_congr rfl fun k _ => ?_
  have hk := contrEquiv1_symm_val dot_S8192x2048_S8192x2048_S8192x8192_1_1_0_0_n_n 2048 rfl rfl k
  have el : dot_S8192x2048_S8192x2048_S8192x8192_1_1_0_0_n_n.lhsIdx j ((contrEquiv1 dot_S8192x2048_S8192x2048_S8192x8192_1_1_0_0_n_n 2048 rfl rfl).symm k) = ix2 (j 0) k := funext fun a => Fin.ext (by
    match a with
    | ⟨0, _⟩ => exact lhs_main_v7_0 _ _
    | ⟨1, _⟩ => exact (lhs_main_v7_1 _ _).trans hk)
  have er : dot_S8192x2048_S8192x2048_S8192x8192_1_1_0_0_n_n.rhsIdx j ((contrEquiv1 dot_S8192x2048_S8192x2048_S8192x8192_1_1_0_0_n_n 2048 rfl rfl).symm k) = ix2 (j 1) k := funext fun a => Fin.ext (by
    match a with
    | ⟨0, _⟩ => exact rhs_main_v7_0 _ _
    | ⟨1, _⟩ => exact (rhs_main_v7_1 _ _).trans hk)
  rw [el, er]
  rfl

/-- Slice e of the weights with its unit axis dropped, at (r, k): the weights at (e, r, k). -/
theorem sliceRow_apply (e : Fin 8) (x2 : FVec Ideal S8x8192x2048 .f32)
    (hs : S8x8192x2048.Slices ![e.val, 0, 0] S1x8192x2048) (r : Fin 8192) (k : Fin 2048) :
    shapeCast S8192x2048 (extractStridedSlice S1x8192x2048 ![e.val, 0, 0] x2 hs) shapeCasts_S1x8192x2048_S8192x2048 (ix2 r k)
      = x2 (ix3 e r k) := by
  refine (shapeCast_apply _ shapeCasts_S1x8192x2048_S8192x2048 (ix2 r k) (ix3 (0 : Fin 1) r k) ?_).trans ?_
  · rw [Shape.rowMajor_val_three, Shape.rowMajor_val_two]
    show (0 * 8192 + r.val) * 2048 + k.val = r.val * 2048 + k.val
    omega
  · exact extractStridedSlice_apply ![e.val, 0, 0] x2 hs (ix3 (0 : Fin 1) r k) (ix3 e r k) (fun a => match a with
      | ⟨0, _⟩ => by show e.val = e.val + 0; omega
      | ⟨1, _⟩ => by show r.val = 0 + r.val; omega
      | ⟨2, _⟩ => by show k.val = 0 + k.val; omega)

/-- One expert's contribution as the reference computes it: the spread indicator times the product with that expert's
    slice of the weights. -/
def stage (E : BitVec 32) (off : Fin 3 → ℕ) (hs : S8x8192x2048.Slices off S1x8192x2048)
    (x0 : FVec Ideal S8192x2048 .f32) (x1 : IVec S8192 32)
    (x2 : FVec Ideal S8x8192x2048 .f32) : FVec Ideal S8192x8192 .f32 :=
  mulf
    (broadcastInDim S8192x8192 ![0, 1] bcast_S8192x1_S8192x8192_0_1
      (uitofp (F := Ideal) .f32 (broadcastInDim S8192x1 ![0] bcast_S8192_S8192x1_0
        (cmpi .eq x1 (broadcastInDim S8192 ![] bcast_S_S8192 (constantI S_ 32 E))))))
    (Host.dotGeneral dot_S8192x2048_S8192x2048_S8192x8192_1_1_0_0_n_n none x0
      (shapeCast _ (extractStridedSlice S1x8192x2048 off x2 hs) shapeCasts_S1x8192x2048_S8192x2048))

/-- Expert e's contribution at entry j. -/
theorem stage_apply (e : Fin 8) (hs : S8x8192x2048.Slices ![e.val, 0, 0] S1x8192x2048)
    (x0 : FVec Ideal S8192x2048 .f32) (x1 : IVec S8192 32)
    (x2 : FVec Ideal S8x8192x2048 .f32) (j : S8192x8192.Idx) :
    stage (BitVec.ofNat 32 e.val) ![e.val, 0, 0] hs x0 x1 x2 j
      = ind (x1 (ix1 (j 0))) (BitVec.ofNat 32 e.val) * dot x0 x2 e (j 0) (j 1) := by
  unfold stage
  refine (mulf_apply _ _ j).trans ?_
  refine congrArg₂ (· * ·) (mask_apply _ x1 j) ?_
  refine (dot_apply x0 _ j).trans ?_
  unfold dot
  exact Finset.sum_congr rfl fun k _ => congrArg (x0 (ix2 (j 0) k) * ·) (sliceRow_apply e x2 hs (j 1) k)

/-- THE REFERENCE'S RESULT is the routed product of its three arguments. -/
theorem result_eq (x0 : FVec Ideal S8192x2048 .f32) (x1 : IVec S8192 32)
    (x2 : FVec Ideal S8x8192x2048 .f32) :
    val_main_v80 (F := Ideal) x0 x1 x2 = routed x0 x1 x2 := by
  have h : val_main_v80 (F := Ideal) x0 x1 x2 =
      (addf (addf (addf (addf (addf (addf (addf (addf (Read.val_main_v0 (F := Ideal))
      (stage 0#32 ![0, 0, 0] slices_S8x8192x2048_S1x8192x2048_0_0_0 x0 x1 x2))
      (stage 1#32 ![1, 0, 0] slices_S8x8192x2048_S1x8192x2048_1_0_0 x0 x1 x2))
      (stage 2#32 ![2, 0, 0] slices_S8x8192x2048_S1x8192x2048_2_0_0 x0 x1 x2))
      (stage 3#32 ![3, 0, 0] slices_S8x8192x2048_S1x8192x2048_3_0_0 x0 x1 x2))
      (stage 4#32 ![4, 0, 0] slices_S8x8192x2048_S1x8192x2048_4_0_0 x0 x1 x2))
      (stage 5#32 ![5, 0, 0] slices_S8x8192x2048_S1x8192x2048_5_0_0 x0 x1 x2))
      (stage 6#32 ![6, 0, 0] slices_S8x8192x2048_S1x8192x2048_6_0_0 x0 x1 x2))
      (stage 7#32 ![7, 0, 0] slices_S8x8192x2048_S1x8192x2048_7_0_0 x0 x1 x2)) := rfl
  funext j
  have z : val_main_v0 (F := Ideal) j = 0 := by
    rw [val_main_v0_apply, val_main_cst_apply]; exact Ideal.ofBits_zero_f32
  have s0 : stage 0#32 ![0, 0, 0] slices_S8x8192x2048_S1x8192x2048_0_0_0 x0 x1 x2 j = _ := stage_apply 0 _ x0 x1 x2 j
  have s1 : stage 1#32 ![1, 0, 0] slices_S8x8192x2048_S1x8192x2048_1_0_0 x0 x1 x2 j = _ := stage_apply 1 _ x0 x1 x2 j
  have s2 : stage 2#32 ![2, 0, 0] slices_S8x8192x2048_S1x8192x2048_2_0_0 x0 x1 x2 j = _ := stage_apply 2 _ x0 x1 x2 j
  have s3 : stage 3#32 ![3, 0, 0] slices_S8x8192x2048_S1x8192x2048_3_0_0 x0 x1 x2 j = _ := stage_apply 3 _ x0 x1 x2 j
  have s4 : stage 4#32 ![4, 0, 0] slices_S8x8192x2048_S1x8192x2048_4_0_0 x0 x1 x2 j = _ := stage_apply 4 _ x0 x1 x2 j
  have s5 : stage 5#32 ![5, 0, 0] slices_S8x8192x2048_S1x8192x2048_5_0_0 x0 x1 x2 j = _ := stage_apply 5 _ x0 x1 x2 j
  have s6 : stage 6#32 ![6, 0, 0] slices_S8x8192x2048_S1x8192x2048_6_0_0 x0 x1 x2 j = _ := stage_apply 6 _ x0 x1 x2 j
  have s7 : stage 7#32 ![7, 0, 0] slices_S8x8192x2048_S1x8192x2048_7_0_0 x0 x1 x2 j = _ := stage_apply 7 _ x0 x1 x2 j
  rw [h]
  simp only [addf_apply]
  rw [z, s0, s1, s2, s3, s4, s5, s6, s7, zero_add]
  unfold routed
  rw [Fin.sum_univ_eight]

end Cert.RoutedProduct.Reference

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.StepValue.lean ====
/-
  One step of the walk, as a value.

  At a grid point the body loads the point's block of x ([1024, 1024]), of the weights ([1, 1024, 1024]: one expert,
  1024 output rows, 1024 features) and of the expert ids ([1024]), forms the product of the x block with the
  transposed weight block, multiplies row p of it by the indicator "id p is this point's expert", and adds the result
  to the accumulator it keeps between points; at a block's first point the accumulator is first reset to zero, and at
  its last point the accumulator is also copied to the output block.  The first half of this file reads what each kind
  of point leaves behind as that one payload of the loaded blocks (at any float values); the second half reads the
  payload at an entry (p, q) at the ideal values.
-/
import proofs.«157806_j76647986365154_1_alg».proof.Proof.Gen.KernelIdeal.Frame
import proofs.«157806_j76647986365154_1_alg».proof.Proof.RoutedProduct
import proofs.«157806_j76647986365154_1_alg».proof.Proof.LibIndexReads
import proofs.«157806_j76647986365154_1_alg».proof.Proof.LibColumnBroadcast
import proofs.«157806_j76647986365154_1_alg».proof.Proof.LibUnitAxisSums
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Step

open Cert.KernelIdeal Cert.KernelIdeal.Gen Idealize.ShloMosaic Idealize.ShloMosaic.TcCoe Idealize.SL.Sem
open Idealize.ShloMosaic.ValueIdx
open Idealize.ShloMosaic.Pipeline (Dat)

open Cert.RoutedProduct

/-! ## What each kind of point leaves, as the step payload of the loaded blocks -/

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A block's FIRST point: the accumulator is reset, then the step is added to the reset block. -/
theorem first_scratch (c : Dev nD) (i : grid0.Coords) (arg4 : Memref sig .tc .vmem S1024x1024 .f32) (harg4 : arg4.IsWhole) (arg5 : Memref sig .tc .vmem S1x1024x1024 .f32) (harg5 : arg5.IsWhole) (arg6 : Memref sig .tc .vmem S1024 .i32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x1024 .f32) (x1 : Vec F S1x1024x1024 .f32) (x2 : Vec F S1024 .i32) :
    sout0_A_0 c i arg4 harg4 arg5 harg5 arg6 harg6 arg7 harg7 arg8 harg8 hc0 hc1 x0 x1 x2 = k0_pay2 i x0 x1 x2 (k0_pay1 (F := F)) := by
  unfold sout0_A_0
  rw [View.read_writes_eq_canon _ _ _ (scover0_A_0 c i arg4 harg4 arg5 harg5 arg6 harg6 arg7 harg7 arg8 harg8 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg4.read_unread, harg5.read_unread, harg6.read_unread, harg8.read_unread, View.ld_unit_zero (S := S1024x1024) hz2, View.ld_unit_zero (S := S1x1024x1024) hz3, View.ld_unit_zero (S := S1024) hz1]

/-- A MIDDLE point: the step is added to what the point before left in the accumulator. -/
theorem later_scratch (c : Dev nD) (i : grid0.Coords) (arg4 : Memref sig .tc .vmem S1024x1024 .f32) (harg4 : arg4.IsWhole) (arg5 : Memref sig .tc .vmem S1x1024x1024 .f32) (harg5 : arg5.IsWhole) (arg6 : Memref sig .tc .vmem S1024 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x1024 .f32) (x1 : Vec F S1x1024x1024 .f32) (x2 : Vec F S1024 .i32) (xs0 : Vec F S1024x1024 .f32) :
    sout0_B_0 c i arg4 harg4 arg5 harg5 arg6 harg6 arg7 harg7 arg8 harg8 hc0 hc1 x0 x1 x2 xs0 = k0_pay2 i x0 x1 x2 xs0 := by
  unfold sout0_B_0
  rw [View.read_writes_eq_canon _ _ _ (scover0_B_0 c i arg4 harg4 arg5 harg5 arg6 harg6 arg7 harg7 arg8 harg8 hc0 hc1 x0 x1 x2 xs0)]
  unfold kernelRun0_B
  dsimp only
  rw [View.canon_unit_zero hz2]
  simp only [View.readAt_eq_ld, harg4.read_unread, harg5.read_unread, harg6.read_unread, harg8.read_unread, View.ld_unit_zero (S := S1024x1024) hz2, View.ld_unit_zero (S := S1x1024x1024) hz3, View.ld_unit_zero (S := S1024) hz1]

/-- A block's LAST point leaves the same in the accumulator … -/
theorem last_scratch (c : Dev nD) (i : grid0.Coords) (arg4 : Memref sig .tc .vmem S1024x1024 .f32) (harg4 : arg4.IsWhole) (arg5 : Memref sig .tc .vmem S1x1024x1024 .f32) (harg5 : arg5.IsWhole) (arg6 : Memref sig .tc .vmem S1024 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1x1024x1024 .f32) (x2 : Vec F S1024 .i32) (xs0 : Vec F S1024x1024 .f32) :
    sout0_C_0 c i arg4 harg4 arg5 harg5 arg6 harg6 arg7 harg7 arg8 harg8 hc0 hc1 x0 x1 x2 xs0 = k0_pay2 i x0 x1 x2 xs0 := by
  unfold sout0_C_0
  rw [View.read_writes_eq_canon _ _ _ (scover0_C_0 c i arg4 harg4 arg5 harg5 arg6 harg6 arg7 harg7 arg8 harg8 hc0 hc1 x0 x1 x2 xs0)]
  unfold kernelRun0_C
  dsimp only
  sl_unfold_words
  rw [View.canon_unit_zero hz2]
  simp only [View.readAt_eq_ld, harg4.read_unread, harg5.read_unread, harg6.read_unread, harg8.read_unread, View.ld_unit_zero (S := S1024x1024) hz2, View.ld_unit_zero (S := S1x1024x1024) hz3, View.ld_unit_zero (S := S1024) hz1]

/-- … and copies it to the output block: the output block holds the accumulator read back after the step's store. -/
theorem last_written (c : Dev nD) (i : grid0.Coords) (arg4 : Memref sig .tc .vmem S1024x1024 .f32) (harg4 : arg4.IsWhole) (arg5 : Memref sig .tc .vmem S1x1024x1024 .f32) (harg5 : arg5.IsWhole) (arg6 : Memref sig .tc .vmem S1024 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1x1024x1024 .f32) (x2 : Vec F S1024 .i32) (xs0 : Vec F S1024x1024 .f32) :
    out0_C_3 c i arg4 harg4 arg5 harg5 arg6 harg6 arg7 harg7 arg8 harg8 hc0 hc1 x0 x1 x2 xs0 = k0_pay2 i x0 x1 x2 xs0 := by
  unfold out0_C_3
  rw [View.read_writes_eq_canon _ _ _ (cover0_C_3 c i arg4 harg4 arg5 harg5 arg6 harg6 arg7 harg7 arg8 harg8 hc0 hc1 x0 x1 x2 xs0)]
  unfold kernelRun0_C
  dsimp only
  sl_unfold_words
  rw [View.canon_unit_zero hz2, View.readCov_unit_zero (S := S1024x1024) _ hz2]
  simp only [View.readAt_eq_ld, harg4.read_unread, harg5.read_unread, harg6.read_unread, harg8.read_unread, View.ld_unit_zero (S := S1024x1024) hz2, View.ld_unit_zero (S := S1x1024x1024) hz3, View.ld_unit_zero (S := S1024) hz1]

end Pieces

/-! ## One step's arithmetic at an entry, at the ideal values -/

/-- The contracted axis of the body's product is axis 1 of both operands: the left index at (j, k) is (j 0, k) … -/
theorem lhs_at (j : S1024x1024.Idx) (k : Fin 1024) :
    dot_S1024x1024_S1024x1024_S1024x1024_1_1_0_0_n_n.lhsIdx j ((contrEquiv1 dot_S1024x1024_S1024x1024_S1024x1024_1_1_0_0_n_n 1024 rfl rfl).symm k) = ix2 (j 0) k := by
  have hk := contrEquiv1_symm_val dot_S1024x1024_S1024x1024_S1024x1024_1_1_0_0_n_n 1024 rfl rfl k
  funext a
  apply Fin.ext
  match a with
  | ⟨0, _⟩ =>
    show (dot_S1024x1024_S1024x1024_S1024x1024_1_1_0_0_n_n.lhsIdx j _ 0).val = (j 0).val
    unfold DotDims.lhsIdx
    rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
    rfl
  | ⟨1, _⟩ => exact (dot_S1024x1024_S1024x1024_S1024x1024_1_1_0_0_n_n.lhsIdx_val_of_single rfl j _).trans hk

/-- … and the right index is (j 1, k). -/
theorem rhs_at (j : S1024x1024.Idx) (k : Fin 1024) :
    dot_S1024x1024_S1024x1024_S1024x1024_1_1_0_0_n_n.rhsIdx j ((contrEquiv1 dot_S1024x1024_S1024x1024_S1024x1024_1_1_0_0_n_n 1024 rfl rfl).symm k) = ix2 (j 1) k := by
  have hk := contrEquiv1_symm_val dot_S1024x1024_S1024x1024_S1024x1024_1_1_0_0_n_n 1024 rfl rfl k
  funext a
  apply Fin.ext
  match a with
  | ⟨0, _⟩ =>
    show (dot_S1024x1024_S1024x1024_S1024x1024_1_1_0_0_n_n.rhsIdx j _ 0).val = (j 1).val
    unfold DotDims.rhsIdx
    rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
    rfl
  | ⟨1, _⟩ => exact (dot_S1024x1024_S1024x1024_S1024x1024_1_1_0_0_n_n.rhsIdx_val_of_single rfl j _).trans hk

/-- What one step stores, at entry (p, q) of the block: the accumulator's entry plus the indicator of "this row's expert
    id is the step's expert" times the row of the x block against row q of the weight block. The changes of float
    format are the identity on extended reals, and the product into the zero accumulator is the plain sum. -/
theorem step_entry (i : grid0.Coords) (x0 : Vec Ideal S1024x1024 .f32) (x1 : Vec Ideal S1x1024x1024 .f32)
    (x2 : Vec Ideal S1024 .i32) (xs : Vec Ideal S1024x1024 .f32) (p q : Fin 1024) :
    k0_pay2 (F := Ideal) i x0 x1 x2 xs (ix2 p q)
      = xs (ix2 p q) + ind (x2 (ix1 p)) (BitVec.ofNat 32 (i 2).val)
          * ∑ d : Fin 1024, x0 (ix2 p d) * x1 (ix3 (0 : Fin 1) q d) := by
  unfold k0_pay2
  refine (congrFun (shapeCast_self _ _) (ix2 p q)).trans ?_
  refine (addf_apply _ _ _).trans ?_
  refine congrArg (xs (ix2 p q) + ·) ?_
  refine (mulf_apply _ _ _).trans ?_
  refine congrArg₂ (· * ·) ?_ ?_
  · refine (Cert.WeightUpdate.Layout.broadcastTo_a1_ab_apply _ _ p q).trans ?_
    refine (shapeCast_a_a1_apply _ _ p (0 : Fin 1)).trans ?_
    exact signed_of_extended_eq _ _
  · refine (Cert.IndexReads.matmul_zero_single dot_S1024x1024_S1024x1024_S1024x1024_1_1_0_0_n_n 1024 rfl rfl none _ _ (ix2 p q)
      (fun k => ix2 p k) (fun k => ix2 q k) (fun k => lhs_at (ix2 p q) k) (fun k => rhs_at (ix2 p q) k)).trans ?_
    refine Finset.sum_congr rfl fun k _ => congrArg (x0 (ix2 p k) * ·) ?_
    refine shapeCast_apply x1 shapeCasts_S1x1024x1024_S1024x1024 (ix2 q k) (ix3 (0 : Fin 1) q k) ?_
    rw [Shape.rowMajor_val_three, Shape.rowMajor_val_two]
    show (0 * 1024 + q.val) * 1024 + k.val = q.val * 1024 + k.val
    omega

/-- The reset block is zero at every entry. -/
theorem reset_entry (j : S1024x1024.Idx) : k0_pay1 (F := Ideal) j = 0 := by
  unfold k0_pay1
  refine (congrFun (shapeCast_self _ _) j).trans ?_
  exact Ideal.ofBits_zero_f32

end Cert.KernelIdeal.Step

end
-- ==== Proof.Walk.lean ====
/-
  The walk, followed from point to point, and the result array.

  The 1024 grid points are taken in the order (I, J, E, K) — row block, column block, expert, half of the feature axis —
  with K fastest, so the sixteen points 16 b, …, 16 b + 15 belong to one result block (I, J) = (b / 8, b mod 8) and visit
  the pairs (E, K) in order.  First: where each point's blocks of x, of the weights and of the expert ids sit inside the
  whole arrays.  Then: the accumulator after the body at point n is, entry by entry, the sum of the block terms of the
  points of its block up to n (induction on n: the first point of a block stores the step over the reset block, every
  other point the step over what the point before left).  At a block's last point the same contents are copied to the
  output block and written back, and that sum of sixteen terms is the routed product at the block's entries; the 64 last
  points cover the whole [8192, 8192] result, so the result array ends holding the routed product of the arguments.
-/
import proofs.«157806_j76647986365154_1_alg».proof.Proof.Gen.KernelIdeal.Value
import proofs.«157806_j76647986365154_1_alg».proof.Proof.StepValue
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Walk

open Cert.KernelIdeal Cert.KernelIdeal.Gen Idealize.ShloMosaic Idealize.ShloMosaic.TcCoe Idealize.SL.Sem
open Idealize.ShloMosaic.ValueIdx
open Idealize.ShloMosaic.Pipeline (Dat)

open Cert.RoutedProduct Cert.KernelIdeal.Step

/-! ## Where each point's blocks sit -/

/-- The grid is walked in the order (I, J, E, K) = (row block, column block, expert, half of the contracted axis), K
    fastest: point number t has I = t / 128, J = t / 16 mod 8, E = t / 2 mod 8, K = t mod 2. The block index maps of
    the four windows, and the expert coordinate the body sees, in those terms — decided over the 1024 points. -/
theorem block_at : ∀ t : Fin cfg0.N,
    win0_0.index t (0 : Fin 2) = t.val / 128 ∧ win0_0.index t (1 : Fin 2) = t.val % 2
    ∧ win0_1.index t (0 : Fin 3) = t.val / 2 % 8 ∧ win0_1.index t (1 : Fin 3) = t.val / 16 % 8
    ∧ win0_1.index t (2 : Fin 3) = t.val % 2
    ∧ win0_2.index t (0 : Fin 1) = t.val / 128
    ∧ win0_3.index t (0 : Fin 2) = t.val / 128 ∧ win0_3.index t (1 : Fin 2) = t.val / 16 % 8
    ∧ (grid0.coords t 2).val = t.val / 2 % 8 :=
  (by decide +kernel : ∀ t : Fin grid0.N, _)

section AnyValues

variable {F : FTy → Type} [FloatOps F]
variable (m : (ℓ : Loc nD τ sig) → Buf (Elt F) ℓ)

/-- The x block at point t, entry (p, d): x at row 1024 I + p, feature 1024 K + d. -/
theorem x_block (c : Dev nD) (t : Fin cfg0.N) (p d : Fin 1024) :
    (iblk m c 0 t : Vec F S1024x1024 .f32) (ix2 p d)
      = V m c main_arg0 (ix2 (at8 (t.val / 128) p) (at2 (t.val % 2) d)) := by
  obtain ⟨e0, e1, -⟩ := block_at t
  have ht : t.val < 1024 := lt_of_lt_of_eq t.isLt (show cfg0.N = 1024 from N_0)
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = (t.val / 128 % 8) * 1024 + p.val; omega
  | ⟨1, _⟩ => show win0_0.index t (1 : Fin 2) * 1024 + 1 * d.val = (t.val % 2 % 2) * 1024 + d.val; omega

/-- The weight block at point t, entry (0, q, d): the weights of expert E at output row 1024 J + q, feature 1024 K + d. -/
theorem w_block (c : Dev nD) (t : Fin cfg0.N) (q d : Fin 1024) :
    (iblk m c 1 t : Vec F S1x1024x1024 .f32) (ix3 (0 : Fin 1) q d)
      = V m c main_arg2 (ix3 (ex (t.val / 2 % 8)) (at8 (t.val / 16) q) (at2 (t.val % 2) d)) := by
  obtain ⟨-, -, e2, e3, e4, -⟩ := block_at t
  have ht : t.val < 1024 := lt_of_lt_of_eq t.isLt (show cfg0.N = 1024 from N_0)
  unfold iblk
  rw [View.read_apply]
  show V m c main_arg2 _ = V m c main_arg2 _
  refine congrArg (V m c main_arg2) (funext fun a => Fin.ext ?_)
  match a with
  | ⟨0, _⟩ => show win0_1.index t (0 : Fin 3) * 1 + 1 * 0 = t.val / 2 % 8 % 8; omega
  | ⟨1, _⟩ => show win0_1.index t (1 : Fin 3) * 1024 + 1 * q.val = (t.val / 16 % 8) * 1024 + q.val; omega
  | ⟨2, _⟩ => show win0_1.index t (2 : Fin 3) * 1024 + 1 * d.val = (t.val % 2 % 2) * 1024 + d.val; omega

/-- The expert-id block at point t, entry p: the id of row 1024 I + p. -/
theorem id_block (c : Dev nD) (t : Fin cfg0.N) (p : Fin 1024) :
    (iblk m c 2 t : Vec F S1024 .i32) (ix1 p) = V m c main_arg1 (ix1 (at8 (t.val / 128) p)) := by
  obtain ⟨-, -, -, -, -, e5, -⟩ := block_at t
  have ht : t.val < 1024 := lt_of_lt_of_eq t.isLt (show cfg0.N = 1024 from N_0)
  unfold iblk
  rw [View.read_apply]
  show V m c main_arg1 _ = V m c main_arg1 _
  refine congrArg (V m c main_arg1) (funext fun a => Fin.ext ?_)
  match a with
  | ⟨0, _⟩ => show win0_2.index t (0 : Fin 1) * 1024 + 1 * p.val = (t.val / 128 % 8) * 1024 + p.val; omega

/-! ## The accumulator from point to point -/

/-- What the accumulator holds after the body at point n. -/
def kept (c : Dev nD) (n : ℕ) (h : n < cfg0.N) : Vec F S1024x1024 .f32 := (outsAt0 m c n h).2

/-- At a block's first point (16 divides t): the step over the reset block. -/
theorem kept_first (c : Dev nD) (t : Fin cfg0.N) (h0 : t.val % 16 = 0) :
    kept m c t.val t.isLt = k0_pay2 (grid0.coords t) (iblk m c 0 t) (iblk m c 1 t) (iblk m c 2 t) (k0_pay1 (F := F)) := by
  have h1 : ¬t.val % 16 = 15 := by omega
  unfold kept
  rw [outsAt0_A m c t h0 h1]
  dsimp only
  exact first_scratch c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every other point: the step over what the point before left. -/
theorem kept_next (c : Dev nD) (t : Fin cfg0.N) (h0 : ¬t.val % 16 = 0) :
    kept m c t.val t.isLt
      = k0_pay2 (grid0.coords t) (iblk m c 0 t) (iblk m c 1 t) (iblk m c 2 t) (kept m c (t.val - 1) (Nat.lt_of_le_of_lt (Nat.sub_le _ _) t.isLt)) := by
  unfold kept
  by_cases h1 : t.val % 16 = 15
  · rw [outsAt0_C m c t h0 h1]
    dsimp only
    exact last_scratch c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact later_scratch c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- At a block's last point the output block is left holding the same. -/
theorem written_last (c : Dev nD) (t : Fin cfg0.N) (h1 : t.val % 16 = 15) :
    (outsAt0 m c t.val t.isLt).1
      = k0_pay2 (grid0.coords t) (iblk m c 0 t) (iblk m c 1 t) (iblk m c 2 t) (kept m c (t.val - 1) (Nat.lt_of_le_of_lt (Nat.sub_le _ _) t.isLt)) := by
  have h0 : ¬t.val % 16 = 0 := by omega
  unfold kept
  rw [outsAt0_C m c t h0 h1]
  dsimp only
  exact last_written c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

end AnyValues

/-! ## At the ideal values: the accumulator is the sum of the block's steps so far -/

variable (m : (ℓ : Loc nD τ sig) → Buf (Elt Ideal) ℓ)

/-- The step at point t, at entry (p, q), in terms of the argument arrays: the accumulator's entry plus the block term
    of (I, J, E, K) read off t. -/
theorem step_at (c : Dev nD) (t : Fin cfg0.N) (xs : Vec Ideal S1024x1024 .f32) (p q : Fin 1024) :
    k0_pay2 (F := Ideal) (grid0.coords t) (iblk m c 0 t) (iblk m c 1 t) (iblk m c 2 t) xs (ix2 p q)
      = xs (ix2 p q) + blockTerm (V m c main_arg0) (V m c main_arg1) (V m c main_arg2)
          (t.val / 128) (t.val / 16) (t.val / 2 % 8) (t.val % 2) p q := by
  have hE : (grid0.coords t 2).val = t.val / 2 % 8 := (block_at t).2.2.2.2.2.2.2.2
  refine (step_entry (grid0.coords t) (iblk m c 0 t) (iblk m c 1 t) (iblk m c 2 t) xs p q).trans ?_
  unfold blockTerm
  refine congrArg (xs (ix2 p q) + ·) ?_
  refine congrArg₂ (· * ·) (congrArg₂ ind (id_block m c t p) (congrArg (BitVec.ofNat 32) hE)) ?_
  exact Finset.sum_congr rfl fun d _ => congrArg₂ (· * ·) (x_block m c t p d) (w_block m c t q d)

/-- THE INVARIANT of the walk: after point n the accumulator's entry (p, q) is the sum of the terms of the steps the
    block has taken so far — by induction on the point, the reset restarting the sum at each block's first point. -/
theorem kept_eq (c : Dev nD) : ∀ (n : ℕ) (h : n < cfg0.N) (p q : Fin 1024),
    kept m c n h (ix2 p q) = acc (V m c main_arg0) (V m c main_arg1) (V m c main_arg2) n p q := by
  intro n
  induction n using Nat.strong_induction_on with
  | _ n ih =>
    intro h p q
    by_cases h0 : n % 16 = 0
    · refine (congrFun (kept_first m c ⟨n, h⟩ h0) (ix2 p q)).trans ?_
      refine (step_at m c ⟨n, h⟩ _ p q).trans ?_
      rw [reset_entry, zero_add, acc_first _ _ _ n h0]
      show blockTerm _ _ _ (n / 128) (n / 16) (n / 2 % 8) (n % 2) p q = _
      rw [show n / 2 % 8 = 0 by omega, show n % 2 = 0 by omega]
    · refine (congrFun (kept_next m c ⟨n, h⟩ h0) (ix2 p q)).trans ?_
      refine (step_at m c ⟨n, h⟩ _ p q).trans ?_
      rw [acc_next _ _ _ n h0]
      show kept m c (n - 1) _ (ix2 p q) + blockTerm _ _ _ (n / 128) (n / 16) (n / 2 % 8) (n % 2) p q = _
      rw [ih (n - 1) (by omega) _ p q, show n % 16 / 2 = n / 2 % 8 by omega]

/-! ## The result array -/

/-- What a block's last point writes back is that block of the routed product of the arrays as the region finds them. -/
theorem flushed_eq (c : Dev nD) (t : Fin cfg0.N) (hf : (cfg0.win 3).flush t = true) :
    (dats m 0 c).flushed 3 t
      = ((cfg0.win 3).blk t).view.read (Elt Ideal) (routed (V m c main_arg0) (V m c main_arg1) (V m c main_arg2)) := by
  have h1 : t.val % 16 = 15 := (flush0_3 t).mp hf
  have ht : t.val < 1024 := lt_of_lt_of_eq t.isLt (show cfg0.N = 1024 from N_0)
  obtain ⟨-, -, -, -, -, -, e6, e7, -⟩ := block_at t
  rw [Cert.KernelIdeal.Value.flushed3]
  funext y
  obtain ⟨p, q, rfl⟩ : ∃ (p q : Fin 1024), y = ix2 p q := ⟨y 0, y 1, eq_ix2 y⟩
  rw [View.read_apply]
  have hemb : ((cfg0.win 3).blk t).view.emb (ix2 p q) = ix2 (at8 (t.val / 128) p) (at8 (t.val / 16) q) := by
    funext a; apply Fin.ext
    match a with
    | ⟨0, _⟩ => show win0_3.index t (0 : Fin 2) * 1024 + 1 * p.val = (t.val / 128 % 8) * 1024 + p.val; omega
    | ⟨1, _⟩ => show win0_3.index t (1 : Fin 2) * 1024 + 1 * q.val = (t.val / 16 % 8) * 1024 + q.val; omega
  rw [hemb, ← acc_last _ _ _ t.val h1 p q]
  show (outsAt0 m c t.val t.isLt).1 (ix2 p q) = _
  refine (congrFun (written_last m c t h1) (ix2 p q)).trans ?_
  refine (congrFun (kept_next m c t (by omega)) (ix2 p q)).symm.trans ?_
  exact kept_eq m c t.val t.isLt p q

/-- An entry of the result lies in point t's block iff each coordinate lies in the block's range on its axis. -/
theorem mem_block (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every entry (r, s) of the result is written back: by the last point of block (r / 1024, s / 1024). -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 1024 := N_0
  have hlt : ((i 0).val / 1024 * 8 + (i 1).val / 1024) * 16 + 15 < cfg0.N := by rw [hN]; omega
  obtain ⟨-, -, -, -, -, -, e6, e7, -⟩ := block_at ⟨_, hlt⟩
  have htv : (⟨_, hlt⟩ : Fin cfg0.N).val = ((i 0).val / 1024 * 8 + (i 1).val / 1024) * 16 + 15 := rfl
  refine ⟨⟨_, hlt⟩, (flush0_3 _).mpr (by rw [htv]; omega), ?_⟩
  rw [mem_block]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e6, htv]; omega
  | ⟨1, _⟩ =>
    show win0_3.index ⟨_, hlt⟩ (1 : Fin 2) * 1024 ≤ (i 1).val ∧ (i 1).val < win0_3.index ⟨_, hlt⟩ (1 : Fin 2) * 1024 + 1024
    rw [e7, htv]; omega

/-- So the result array ends holding the routed product of the argument arrays. -/
theorem final (c : Dev nD) :
    (dats m 0 c).arrAt 3 cfg0.N = routed (V m c main_arg0) (V m c main_arg1) (V m c main_arg2) :=
  (dats m 0 c).arrAt_eq_of_cover 3 (routed (V m c main_arg0) (V m c main_arg1) (V m c main_arg2))
    (fun t hf => flushed_eq m c t hf) covered

/-- THE KERNEL'S RUN, read: every weakly fair execution terminates with the result array at the routed product of the
    arguments as launched, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
        = routed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Walk

end
-- ==== Proof.lean ====
/-
  The routed grouped product: 8192 token rows x (2048 features each), each carrying an expert id, against eight
  weight matrices w e (8192 output rows by 2048 features).  The result, for token t and output row o, is

      out (t, o) = ∑ e : Fin 8, [id t = e] · ∑ d : Fin 2048, x (t, d) · w (e, o, d),

  the bracket being the indicator 1 / 0: each token is multiplied by the one matrix its id names (and by none if its
  id names none).

  The reference adds the eight indicator-weighted full products to a zero array, in order (Proof/ReferenceRouted.lean).
  The kernel cuts the result into 8 × 8 blocks of [1024, 1024] and, for each block, walks the sixteen pairs
  (expert e, half k of the feature axis) with an accumulator: reset to zero at the first pair, increased at every pair
  by  [id = e] · (x block · transposed weight block), copied to the result block at the last pair (Proof/StepValue.lean
  reads one step; Proof/Walk.lean follows the accumulator through the walk by induction on the grid point and reads the
  result array).  Both are the function above (Proof/RoutedProduct.lean): the indicator, being 0 or 1, distributes over
  the sum of the two halves for every extended real — 0 · a = 0 and 1 · a = a need no finiteness —, a sum over the 2048
  features is the sum of its two halves, and sums of extended reals may be regrouped freely.  The changes of float format
  inside the kernel are the identity at the ideal values.  So the finiteness precondition is never opened.

  The three frames are the generated ones (the reference's is its generated run with the result dropped); the ideal pass
  rewrote nothing, so the idealization conjunct is trivial.
-/
import proofs.«157806_j76647986365154_1_alg».proof.Defs
import proofs.«157806_j76647986365154_1_alg».proof.Proof.Gen.Kernel
import proofs.«157806_j76647986365154_1_alg».proof.Proof.Gen.Kernel.Frame
import proofs.«157806_j76647986365154_1_alg».proof.Proof.Gen.KernelIdeal
import proofs.«157806_j76647986365154_1_alg».proof.Proof.Gen.KernelIdeal.Frame
import proofs.«157806_j76647986365154_1_alg».proof.Proof.Gen.KernelIdeal.Value
import proofs.«157806_j76647986365154_1_alg».proof.Proof.Gen.ReferenceIdeal
import proofs.«157806_j76647986365154_1_alg».proof.Proof.Gen.ReferenceIdeal.Run
import proofs.«157806_j76647986365154_1_alg».proof.Proof.Gen.ReferenceIdeal.Read
import proofs.«157806_j76647986365154_1_alg».proof.Proof.Gen.Pre_finite_inputs
import proofs.«157806_j76647986365154_1_alg».proof.Proof.ReferenceRouted
import proofs.«157806_j76647986365154_1_alg».proof.Proof.Walk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result array ends at the routed product of its arguments (the walk), and the
    reference's at the routed product of its own (the eight stages); the arguments agree. -/
theorem algebraic : Cert.algebraic_KernelIdeal_ReferenceIdeal := by
  intro m ρ m' ρ' _ hagree
  refine ⟨fun c => Cert.RoutedProduct.routed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Walk.run m ρ, ?_⟩
  refine (θ_run Cert.ReferenceIdeal.defs _ _).mono (fun _ h c => ⟨?_, (h c).2⟩)
    (Cert.ReferenceIdeal.Value.run (F := Ideal) m' ρ')
  show _ = Cert.RoutedProduct.routed _ _ _
  rw [(h c).1, Cert.ReferenceIdeal.Read.val_main_v80_eq, Cert.RoutedProduct.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
